-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S1600000x64 .f32) (main_arg4 : FVec F S64x128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg3
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1x128 : Shape := ⟨2, ![1, 128]⟩

abbrev nBuf : Space → Nat
  | .hbm => 30
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000x64, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x128, .bf16⟩
  | .hbm, ⟨27, _⟩ => ⟨S128x128, .bf16⟩
  | .hbm, ⟨28, _⟩ => ⟨S128x128, .bf16⟩
  | .hbm, ⟨29, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S5000x128, .f32⟩
  | .local _ .vmem, ⟨5, _⟩ => ⟨S5000x128, .f32⟩
  | .local _ .vmem, ⟨6, _⟩ => ⟨S64x128, .bf16⟩
  | .local _ .vmem, ⟨7, _⟩ => ⟨S128x128, .bf16⟩
  | .local _ .vmem, ⟨8, _⟩ => ⟨S128, .f32⟩
  | .local _ .vmem, ⟨9, _⟩ => ⟨S128x128, .bf16⟩
  | .local _ .vmem, ⟨10, _⟩ => ⟨S128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x64 : S_.BroadcastsInDim S100000x64 (![] : Fin 0 → Fin S100000x64.rank)
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S1600000x128 : Shape := ⟨2, ![1600000, 128]⟩
abbrev S_ : Shape := ⟨0, ![]⟩
abbrev S1600000x1 : Shape := ⟨2, ![1600000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000x64, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S1600000x64_S64x128_S1600000x128_1_0_0_1_n_n_wf : DotDims.WF S1600000x64 S64x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Spec.lean ====
/-
  What both programs compute, as one function of arrays, index by index, over the extended reals.

  A node's input to the two-layer perceptron is  A(n, d) + ∑ k, B(n, k) · Wₑ(k, d) + one · X(n, d):  A the sum over
  the node's incoming edges of the senders' features, B the sum over the same edges of the edges' features (so the
  middle term is those features' projection by Wₑ, summed), X the node's own features and `one` the value of the
  f32 word of 1.0. The result is the affine map by (W₂, b₂) of the rectified affine map by (W₁, b₁) of that input.
  Every entry of the result depends on one row of A, B and X only, so a block of rows of the result is the same
  function of the blocks of rows.
-/
import Idealize.ShloMosaic.PureOps.Ideal.Laws
import Idealize.ShloMosaic.Lib.ValueIdx
import proofs.«150246_j86277303042056_2_alg».proof.Proof.LibDense

noncomputable section

namespace Cert.EdgeConv

open Idealize.ShloMosaic Idealize.ShloMosaic.ValueIdx Cert.LibDense

variable {M M' : Nat}

/-- The value of the f32 word of 1.0 (both programs multiply the node's own features by it). -/
abbrev oneWord : EReal := Ideal.ofBits .f32 0x3F800000#32

/-- The perceptron's input at (n, d): A(n, d) + ∑ k, B(n, k) · Wₑ(k, d) + one · X(n, d). -/
def combine (A : (⟨2, ![M, 128]⟩ : Shape).Idx → EReal) (B : (⟨2, ![M, 64]⟩ : Shape).Idx → EReal)
    (We : (⟨2, ![64, 128]⟩ : Shape).Idx → EReal) (X : (⟨2, ![M, 128]⟩ : Shape).Idx → EReal) :
    (⟨2, ![M, 128]⟩ : Shape).Idx → EReal :=
  fun i => A i + ∑ k : Fin 64, B (ix2 (n0 := M) (n1 := 64) ⟨(i 0).val, (i 0).isLt⟩ k) * We (ix2 (n0 := 64) (n1 := 128) k ⟨(i 1).val, (i 1).isLt⟩)
    + oneWord * X i

theorem combine_apply (A : (⟨2, ![M, 128]⟩ : Shape).Idx → EReal) (B : (⟨2, ![M, 64]⟩ : Shape).Idx → EReal)
    (We : (⟨2, ![64, 128]⟩ : Shape).Idx → EReal) (X : (⟨2, ![M, 128]⟩ : Shape).Idx → EReal) (p : Fin M) (q : Fin 128) :
    combine A B We X (ix2 p q) = A (ix2 p q) + ∑ k : Fin 64, B (ix2 p k) * We (ix2 k q) + oneWord * X (ix2 p q) := rfl

/-- The layer's result: the second affine map of the rectified first affine map of the input. -/
def result (A : (⟨2, ![M, 128]⟩ : Shape).Idx → EReal) (B : (⟨2, ![M, 64]⟩ : Shape).Idx → EReal)
    (We : (⟨2, ![64, 128]⟩ : Shape).Idx → EReal) (X : (⟨2, ![M, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![M, 128]⟩ : Shape).Idx → EReal :=
  affine (layer (combine A B We X) W1 b1) W2 b2

/-- The perceptron after any input h, and that it only depends on h entry by entry. -/
def perceptron (h : (⟨2, ![M, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![M, 128]⟩ : Shape).Idx → EReal :=
  affine (layer h W1 b1) W2 b2

theorem result_eq_perceptron (A : (⟨2, ![M, 128]⟩ : Shape).Idx → EReal) (B : (⟨2, ![M, 64]⟩ : Shape).Idx → EReal)
    (We : (⟨2, ![64, 128]⟩ : Shape).Idx → EReal) (X : (⟨2, ![M, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    result A B We X W1 b1 W2 b2 = perceptron (combine A B We X) W1 b1 W2 b2 := rfl

/-- ROWS: if A', B', X' are rows r(p) of A, B, X, then row p of the result of A', B', X' is row r(p) of the result
    of A, B, X (a block of the result is the result of the blocks). -/
theorem result_rows (r : Fin M' → Fin M)
    (A : (⟨2, ![M, 128]⟩ : Shape).Idx → EReal) (B : (⟨2, ![M, 64]⟩ : Shape).Idx → EReal) (X : (⟨2, ![M, 128]⟩ : Shape).Idx → EReal)
    (A' : (⟨2, ![M', 128]⟩ : Shape).Idx → EReal) (B' : (⟨2, ![M', 64]⟩ : Shape).Idx → EReal) (X' : (⟨2, ![M', 128]⟩ : Shape).Idx → EReal)
    (hA : ∀ p q, A' (ix2 p q) = A (ix2 (r p) q)) (hB : ∀ p k, B' (ix2 p k) = B (ix2 (r p) k))
    (hX : ∀ p q, X' (ix2 p q) = X (ix2 (r p) q))
    (We : (⟨2, ![64, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (p : Fin M') (q : Fin 128) :
    result A' B' We X' W1 b1 W2 b2 (ix2 p q) = result A B We X W1 b1 W2 b2 (ix2 (r p) q) := by
  unfold result
  simp only [affine_apply, layer_apply, combine_apply, hA, hB, hX]

end Cert.EdgeConv

end
-- ==== Proof.KernelBlock.lean ====
/-
  The kernel's body on one block of rows, at the exact instance: what it stores is the layer's result (Spec) of the
  blocks it loads — the block of the senders' sums, of the edges' sums and of the nodes' features — and of the
  weights. The body is three matrix products into zero accumulators, each a row-by-column sum, two row broadcasts of
  a bias, a maximum with zero and sums; the changes of float format between them are the identity here.
-/
import proofs.«150246_j86277303042056_2_alg».proof.Proof.Gen.KernelIdeal.Skeleton
import proofs.«150246_j86277303042056_2_alg».proof.Proof.Spec
import Idealize.ShloMosaic.Lib.Pipeline.Value
import Idealize.ShloMosaic.Lib.ValueLayout

noncomputable section

namespace Cert.EdgeConv.Block

open Cert.KernelIdeal Cert.KernelIdeal.Gen Idealize.ShloMosaic Idealize.ShloMosaic.ValueIdx Cert.LibDense Cert.EdgeConv

/-! ## Which coordinates the two products' index maps take -/

local notation "dE" => dot_S5000x64_S64x128_S5000x128_1_0_0_1_n_n
local notation "dH" => dot_S5000x128_S128x128_S5000x128_1_0_0_1_n_n

theorem dE_l0 (i : S5000x128.Idx) (c : (dE).contr.Idx) : ((dE).lhsIdx i c 0).val = (i 0).val := by
  unfold DotDims.lhsIdx
  rw [dif_neg (show ¬(0 : Fin S5000x64.rank) ∈ (dE).lhsBatch by decide), dif_pos (show (0 : Fin S5000x64.rank) ∈ (dE).lhsNonContracting by decide)]
  rfl
theorem dE_l1 (i : S5000x128.Idx) (c : (dE).contr.Idx) : ((dE).lhsIdx i c 1).val = (c ⟨0, by decide⟩).val :=
  (dE).lhsIdx_val_of_single rfl i c
theorem dE_r0 (i : S5000x128.Idx) (c : (dE).contr.Idx) : ((dE).rhsIdx i c 0).val = (c ⟨0, by decide⟩).val :=
  (dE).rhsIdx_val_of_single rfl i c
theorem dE_r1 (i : S5000x128.Idx) (c : (dE).contr.Idx) : ((dE).rhsIdx i c 1).val = (i 1).val := by
  unfold DotDims.rhsIdx
  rw [dif_neg (show ¬(1 : Fin S64x128.rank) ∈ (dE).rhsBatch by decide), dif_pos (show (1 : Fin S64x128.rank) ∈ (dE).rhsNonContracting by decide)]
  rfl

theorem dH_l0 (i : S5000x128.Idx) (c : (dH).contr.Idx) : ((dH).lhsIdx i c 0).val = (i 0).val := by
  unfold DotDims.lhsIdx
  rw [dif_neg (show ¬(0 : Fin S5000x128.rank) ∈ (dH).lhsBatch by decide), dif_pos (show (0 : Fin S5000x128.rank) ∈ (dH).lhsNonContracting by decide)]
  rfl
theorem dH_l1 (i : S5000x128.Idx) (c : (dH).contr.Idx) : ((dH).lhsIdx i c 1).val = (c ⟨0, by decide⟩).val :=
  (dH).lhsIdx_val_of_single rfl i c
theorem dH_r0 (i : S5000x128.Idx) (c : (dH).contr.Idx) : ((dH).rhsIdx i c 0).val = (c ⟨0, by decide⟩).val :=
  (dH).rhsIdx_val_of_single rfl i c
theorem dH_r1 (i : S5000x128.Idx) (c : (dH).contr.Idx) : ((dH).rhsIdx i c 1).val = (i 1).val := by
  unfold DotDims.rhsIdx
  rw [dif_neg (show ¬(1 : Fin S128x128.rank) ∈ (dH).rhsBatch by decide), dif_pos (show (1 : Fin S128x128.rank) ∈ (dH).rhsNonContracting by decide)]
  rfl

/-! ## The body's three stages -/

/-- The perceptron's input as the body computes it from the loaded blocks. -/
def stageIn (v0 : Vec Ideal S5000x64 .f32) (v3 : Vec Ideal S64x128 .bf16) (v6 v9 : Vec Ideal S5000x128 .f32) : FVec Ideal S5000x128 .f32 :=
  addf (addf (shapeCast S5000x128 v6 shapeCasts_S5000x128_S5000x128)
      (matmul dE none (truncf .bf16 (shapeCast S5000x64 v0 shapeCasts_S5000x64_S5000x64) bitsLt_bf16_f32)
        (shapeCast S64x128 v3 shapeCasts_S64x128_S64x128 : FVec Ideal S64x128 .bf16) (constant S5000x128 .f32 0x00000000#32)))
    (mulf (broadcast S5000x128 (Scalar.ofBits .f32 0x3F800000#32)) v9)

/-- A product with a [128, 128] matrix into the zero accumulator, plus a bias broadcast down the rows. -/
def stageAffine (x : FVec Ideal S5000x128 .f32) (w : Vec Ideal S128x128 .bf16) (b : Vec Ideal S128 .f32) : FVec Ideal S5000x128 .f32 :=
  addf (matmul dH none (truncf .bf16 x bitsLt_bf16_f32) (shapeCast S128x128 w shapeCasts_S128x128_S128x128 : FVec Ideal S128x128 .bf16)
      (constant S5000x128 .f32 0x00000000#32))
    (broadcastTo S5000x128 (shapeCast S1x128 b shapeCasts_S128_S1x128) broadcasts_S1x128_S5000x128)

/-- The maximum with the zero word. -/
def stageRelu (x : FVec Ideal S5000x128 .f32) : FVec Ideal S5000x128 .f32 :=
  maximumf x (broadcast S5000x128 (Scalar.ofBits .f32 0x00000000#32))

/-- The body's stored value is the three stages composed. -/
theorem pay_stages (v0 : Vec Ideal S5000x64 .f32) (v3 : Vec Ideal S64x128 .bf16) (v6 v9 : Vec Ideal S5000x128 .f32)
    (v14 : Vec Ideal S128x128 .bf16) (v17 : Vec Ideal S128 .f32) (v24 : Vec Ideal S128x128 .bf16) (v27 : Vec Ideal S128 .f32) :
    k0_pay1 (F := Ideal) v0 v3 v6 v9 v14 v17 v24 v27
      = stageAffine (stageRelu (stageAffine (stageIn v0 v3 v6 v9) v14 v17)) v24 v27 := rfl

theorem stageIn_apply (v0 : Vec Ideal S5000x64 .f32) (v3 : Vec Ideal S64x128 .bf16) (v6 v9 : Vec Ideal S5000x128 .f32)
    (p : Fin 5000) (q : Fin 128) : stageIn v0 v3 v6 v9 (ix2 p q) = combine v6 v0 v3 v9 (ix2 p q) := by
  unfold stageIn
  rw [shapeCast_self, shapeCast_self, shapeCast_self, combine_apply, addf_apply, addf_apply, mulf_apply,
    matmul_zero_rc dE rfl rfl dE_l0 dE_l1 dE_r0 dE_r1 none _ _ p q]
  rfl

theorem stageAffine_apply (x : FVec Ideal S5000x128 .f32) (w : Vec Ideal S128x128 .bf16) (b : Vec Ideal S128 .f32)
    (p : Fin 5000) (q : Fin 128) : stageAffine x w b (ix2 p q) = affine x w b (ix2 p q) := by
  unfold stageAffine
  rw [shapeCast_self, affine_apply, addf_apply,
    matmul_zero_rc dH rfl rfl dH_l0 dH_l1 dH_r0 dH_r1 none _ _ p q,
    rowBroadcast_rc b shapeCasts_S128_S1x128 broadcasts_S1x128_S5000x128 p q]
  rfl

/-- WHAT THE BODY STORES: the layer's result of the loaded blocks. -/
theorem payload_eq (v0 : Vec Ideal S5000x64 .f32) (v3 : Vec Ideal S64x128 .bf16) (v6 v9 : Vec Ideal S5000x128 .f32)
    (v14 : Vec Ideal S128x128 .bf16) (v17 : Vec Ideal S128 .f32) (v24 : Vec Ideal S128x128 .bf16) (v27 : Vec Ideal S128 .f32) :
    k0_pay1 (F := Ideal) v0 v3 v6 v9 v14 v17 v24 v27 = result v6 v0 v3 v9 v14 v17 v24 v27 := by
  rw [pay_stages]
  funext j
  obtain ⟨p, q, rfl⟩ : ∃ (p : Fin 5000) (q : Fin 128), j = ix2 p q := ⟨j 0, j 1, eq_ix2 j⟩
  rw [stageAffine_apply]
  unfold result
  rw [affine_apply, affine_apply]
  congr 1
  refine Finset.sum_congr rfl fun k _ => ?_
  congr 1
  show max (stageAffine (stageIn v0 v3 v6 v9) v14 v17 (ix2 p k)) zeroWord = layer (combine v6 v0 v3 v9) v14 v17 (ix2 p k)
  rw [stageAffine_apply, layer_apply, affine_apply]
  congr 2
  refine Finset.sum_congr rfl fun k' _ => ?_
  rw [stageIn_apply]

end Cert.EdgeConv.Block

end
-- ==== Proof.KernelBlocks.lean ====
/-
  How the kernel's windows cut their arrays: index facts only. Grid point t takes block (t, 0) of the three
  row-blocked operands and of the result — rows 5000·t … 5000·t + 4999, every column — and block 0, the whole array,
  of each weight and bias.
-/
import proofs.«150246_j86277303042056_2_alg».proof.Proof.Gen.KernelIdeal.Frame
import Idealize.ShloMosaic.Lib.Pipeline.Value
import Idealize.ShloMosaic.Lib.ValueIdx

noncomputable section

namespace Cert.EdgeConv.Blocks

open Cert.KernelIdeal Cert.KernelIdeal.Gen
open Idealize.ShloMosaic Idealize.ShloMosaic.TcCoe Idealize.SL.Sem
open Idealize.ShloMosaic.ValueIdx
open Idealize.ShloMosaic.Pipeline (Dat)

/-- The printed index maps over the grid: the three row-blocked inputs and the output are at block (t, 0), the
    weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 20 := by
  have h : cfg0.N = 20 := N_0
  have := t.isLt
  omega

/-- Row p of block t is row 5000·t + p of the array. -/
def rowOf (t : Fin cfg0.N) (p : Fin 5000) : Fin 100000 := ⟨5000 * t.val + p.val, by have := t_lt t; have := p.isLt; omega⟩

theorem rowOf_val (t : Fin cfg0.N) (p : Fin 5000) : (rowOf t p).val = 5000 * t.val + p.val := rfl

/-- A row-blocked window's block at t, entry (p, q), is the array's entry (5000·t + p, q). -/
theorem emb0 (t : Fin cfg0.N) (p : Fin 5000) (q : Fin 128) :
    ((cfg0.win 0).blk t).view.emb (ix2 p q) = ix2 (rowOf t p) q := by
  obtain ⟨a00, a01, a10, a11, a20, a21, a30, a31, a40, a41, a50, a60, a61, a70, a80, a81⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega
theorem emb1 (t : Fin cfg0.N) (p : Fin 5000) (k : Fin 64) :
    ((cfg0.win 1).blk t).view.emb (ix2 p k) = ix2 (rowOf t p) k := by
  obtain ⟨a00, a01, a10, a11, a20, a21, a30, a31, a40, a41, a50, a60, a61, a70, a80, a81⟩ := idx_facts t
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega
theorem emb2 (t : Fin cfg0.N) (p : Fin 5000) (q : Fin 128) :
    ((cfg0.win 2).blk t).view.emb (ix2 p q) = ix2 (rowOf t p) q := by
  obtain ⟨a00, a01, a10, a11, a20, a21, a30, a31, a40, a41, a50, a60, a61, a70, a80, a81⟩ := idx_facts t
  funext a; apply Fin.ext
  match a with
  | ⟨0, _⟩ => show win0_2.index t (0 : Fin 2) * 5000 + 1 * p.val = 5000 * t.val + p.val; omega
  | ⟨1, _⟩ => show win0_2.index t (1 : Fin 2) * 128 + 1 * q.val = q.val; omega
theorem emb8 (t : Fin cfg0.N) (p : Fin 5000) (q : Fin 128) :
    ((cfg0.win 8).blk t).view.emb (ix2 p q) = ix2 (rowOf t p) q := by
  obtain ⟨a00, a01, a10, a11, a20, a21, a30, a31, a40, a41, a50, a60, a61, a70, a80, a81⟩ := idx_facts t
  funext a; apply Fin.ext
  match a with
  | ⟨0, _⟩ => show win0_8.index t (0 : Fin 2) * 5000 + 1 * p.val = 5000 * t.val + p.val; omega
  | ⟨1, _⟩ => show win0_8.index t (1 : Fin 2) * 128 + 1 * q.val = q.val; omega

/-- A weight's or bias's block at any point is the whole array. -/
theorem emb3 (t : Fin cfg0.N) (x : S64x128.Idx) : ((cfg0.win 3).blk t).view.emb x = x := by
  obtain ⟨a00, a01, a10, a11, a20, a21, a30, a31, a40, a41, a50, a60, a61, a70, a80, a81⟩ := idx_facts t
  funext a; apply Fin.ext
  match a with
  | ⟨0, _⟩ => show win0_3.index t (0 : Fin 2) * 64 + 1 * (x 0).val = (x 0).val; omega
  | ⟨1, _⟩ => show win0_3.index t (1 : Fin 2) * 128 + 1 * (x 1).val = (x 1).val; omega
theorem emb4 (t : Fin cfg0.N) (x : S128x128.Idx) : ((cfg0.win 4).blk t).view.emb x = x := by
  obtain ⟨a00, a01, a10, a11, a20, a21, a30, a31, a40, a41, a50, a60, a61, a70, a80, a81⟩ := idx_facts t
  funext a; apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega
theorem emb5 (t : Fin cfg0.N) (x : S128.Idx) : ((cfg0.win 5).blk t).view.emb x = x := by
  obtain ⟨a00, a01, a10, a11, a20, a21, a30, a31, a40, a41, a50, a60, a61, a70, a80, a81⟩ := idx_facts t
  funext a; apply Fin.ext
  match a with
  | ⟨0, _⟩ => show win0_5.index t (0 : Fin 1) * 128 + 1 * (x 0).val = (x 0).val; omega
theorem emb6 (t : Fin cfg0.N) (x : S128x128.Idx) : ((cfg0.win 6).blk t).view.emb x = x := by
  obtain ⟨a00, a01, a10, a11, a20, a21, a30, a31, a40, a41, a50, a60, a61, a70, a80, a81⟩ := idx_facts t
  funext a; apply Fin.ext
  match a with
  | ⟨0, _⟩ => show win0_6.index t (0 : Fin 2) * 128 + 1 * (x 0).val = (x 0).val; omega
  | ⟨1, _⟩ => show win0_6.index t (1 : Fin 2) * 128 + 1 * (x 1).val = (x 1).val; omega
theorem emb7 (t : Fin cfg0.N) (x : S128.Idx) : ((cfg0.win 7).blk t).view.emb x = x := by
  obtain ⟨a00, a01, a10, a11, a20, a21, a30, a31, a40, a41, a50, a60, a61, a70, a80, a81⟩ := idx_facts t
  funext a; apply Fin.ext
  match a with
  | ⟨0, _⟩ => show win0_7.index t (0 : Fin 1) * 128 + 1 * (x 0).val = (x 0).val; omega

/-- An index of the result array is in point t's block iff each coordinate is in the block's range on its axis. -/
theorem mem_blk (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v16).slice (win0_8.rect t)).set ↔ _
  rw [View.set_slice_whole, Rect.mem_set_unit]
  exact Iff.rfl

/-- Every row of the result is in the block of the point its number divided by 5000 names. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨a00, a01, a10, a11, a20, a21, a30, a31, a40, a41, a50, a60, a61, a70, a80, a81⟩ := idx_facts t
  have ht : t.val = (i 0).val / 5000 := rfl
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

end Cert.EdgeConv.Blocks

end
-- ==== Proof.KernelValue.lean ====
/-
  The kernel's result array after the run, at the exact instance, as ONE function of the arrays the region finds:
  the layer's result (Spec) of the two scatter-adds the host computed before the region, the nodes' features and
  the weights. Grid point t takes rows 5000·t … 5000·t + 4999 of the three row-blocked operands and the whole of
  each weight and bias, and writes the same rows of the result; the twenty blocks tile the array.
-/
import proofs.«150246_j86277303042056_2_alg».proof.Proof.Gen.KernelIdeal.Value
import proofs.«150246_j86277303042056_2_alg».proof.Proof.KernelBlock
import proofs.«150246_j86277303042056_2_alg».proof.Proof.KernelBlocks
import Idealize.ShloMosaic.Lib.Pipeline.Value

noncomputable section

namespace Cert.EdgeConv.Kernel

open Cert.KernelIdeal Cert.KernelIdeal.Gen Cert.KernelIdeal.Value
open Idealize.ShloMosaic Idealize.ShloMosaic.TcCoe Idealize.SL.Sem
open Idealize.ShloMosaic.ValueIdx Cert.LibDense Cert.EdgeConv Cert.EdgeConv.Blocks
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- Window w's array as the region finds it. Kept closed below: its entries are sums over all the edges, and
    nothing here needs to look inside them. -/
def arr (c : Dev nD) (w : Fin cfg0.W) : Buf (Elt Ideal) ((c : Thread nD τ).loc (Pipeline.arrRef spec0 w)) :=
  V m c (Pipeline.arrRef spec0 w)

theorem arr_eq (c : Dev nD) (w : Fin cfg0.W) : arr m c w = V m c (Pipeline.arrRef spec0 w) := rfl

/-- A window's block at a point is its array read through the block. -/
theorem iblk_eq (c : Dev nD) (w : Fin cfg0.W) (t : Fin cfg0.N) :
    iblk m c w t = ((cfg0.win w).blk t).view.read (Elt Ideal) (arr m c w) := rfl

attribute [irreducible] arr

/-- The result array as one function of the arrays the region finds. -/
def whole (c : Dev nD) : S100000x128.Idx → EReal :=
  result (M := 100000) (arr m c 0) (arr m c 1) (arr m c 3) (arr m c 2) (arr m c 4) (arr m c 5) (arr m c 6) (arr m c 7)

theorem whole_def (c : Dev nD) : whole m c
    = result (M := 100000) (arr m c 0) (arr m c 1) (arr m c 3) (arr m c 2) (arr m c 4) (arr m c 5) (arr m c 6) (arr m c 7) := rfl

attribute [irreducible] whole

theorem iblk0_apply (c : Dev nD) (t : Fin cfg0.N) (p : Fin 5000) (q : Fin 128) :
    iblk m c 0 t (ix2 p q) = arr m c 0 (ix2 (rowOf t p) q) := by
  rw [iblk_eq, View.read_apply, emb0]
  exact cast_eq _ _
theorem iblk1_apply (c : Dev nD) (t : Fin cfg0.N) (p : Fin 5000) (k : Fin 64) :
    iblk m c 1 t (ix2 p k) = arr m c 1 (ix2 (rowOf t p) k) := by
  rw [iblk_eq, View.read_apply, emb1]
  exact cast_eq _ _
theorem iblk2_apply (c : Dev nD) (t : Fin cfg0.N) (p : Fin 5000) (q : Fin 128) :
    iblk m c 2 t (ix2 p q) = arr m c 2 (ix2 (rowOf t p) q) := by
  rw [iblk_eq, View.read_apply, emb2]
  exact cast_eq _ _
theorem iblk3_eq (c : Dev nD) (t : Fin cfg0.N) : iblk m c 3 t = arr m c 3 := by
  funext x; rw [iblk_eq, View.read_apply, emb3]
  exact cast_eq _ _
theorem iblk4_eq (c : Dev nD) (t : Fin cfg0.N) : iblk m c 4 t = arr m c 4 := by
  funext x; rw [iblk_eq, View.read_apply, emb4]
  exact cast_eq _ _
theorem iblk5_eq (c : Dev nD) (t : Fin cfg0.N) : iblk m c 5 t = arr m c 5 := by
  funext x; rw [iblk_eq, View.read_apply, emb5]
  exact cast_eq _ _
theorem iblk6_eq (c : Dev nD) (t : Fin cfg0.N) : iblk m c 6 t = arr m c 6 := by
  funext x; rw [iblk_eq, View.read_apply, emb6]
  exact cast_eq _ _
theorem iblk7_eq (c : Dev nD) (t : Fin cfg0.N) : iblk m c 7 t = arr m c 7 := by
  funext x; rw [iblk_eq, View.read_apply, emb7]
  exact cast_eq _ _

/-- The layer's result of point t's blocks is rows 5000·t … of the whole-array function. -/
theorem block_eq (c : Dev nD) (t : Fin cfg0.N) (p : Fin 5000) (q : Fin 128) :
    result (M := 5000) (iblk m c 0 t) (iblk m c 1 t) (iblk m c 3 t) (iblk m c 2 t) (iblk m c 4 t) (iblk m c 5 t)
      (iblk m c 6 t) (iblk m c 7 t) (ix2 p q) = whole m c (ix2 (rowOf t p) q) := by
  rw [iblk3_eq, iblk4_eq, iblk5_eq, iblk6_eq, iblk7_eq, whole_def]
  exact result_rows (M := 100000) (M' := 5000) (rowOf t) (arr m c 0) (arr m c 1) (arr m c 2)
    (iblk m c 0 t) (iblk m c 1 t) (iblk m c 2 t) (iblk0_apply m c t) (iblk1_apply m c t) (iblk2_apply m c t)
    (arr m c 3) (arr m c 4) (arr m c 5) (arr m c 6) (arr m c 7) p q

/-- What a write-back takes of the output's staging buffer is the buffer itself: the blocks are never clipped. -/
theorem cut8_apply (t : Fin cfg0.N) (X : S5000x128.Idx → EReal) (p : Fin 5000) (q : Fin 128) :
    (cfg0.win 8).cut (grid0.coords t) X (ix2 p q) = X (ix2 p q) := rfl

/-- WHAT POINT t WRITES BACK is block t of the whole-array function. -/
theorem flushed_eq (c : Dev nD) (t : Fin cfg0.N) :
    (dats m 0 c).flushed 8 t = ((cfg0.win 8).blk t).view.read (Elt Ideal) (whole m c) := by
  rw [Value.flushed8]
  unfold out0_8
  rw [View.canon_unit_zero hz]
  simp only [View.ld_unit_zero (S := S5000x64) hz, View.ld_unit_zero (S := S64x128) hz,
    View.ld_unit_zero (S := S5000x128) hz, View.ld_unit_zero (S := S128x128) hz, View.ld_unit_zero (S := S128) hz1]
  rw [Block.payload_eq]
  funext y
  obtain ⟨p, q, rfl⟩ : ∃ (p : Fin 5000) (q : Fin 128), y = ix2 p q := ⟨y 0, y 1, eq_ix2 y⟩
  refine (cut8_apply t _ p q).trans ?_
  refine (block_eq m c t p q).trans ?_
  rw [View.read_apply, emb8]
  exact (cast_eq _ _).symm

/-- THE ARRAY after the run is the whole-array function. -/
theorem final (c : Dev nD) : (dats m 0 c).arrAt 8 cfg0.N = whole m c :=
  (dats m 0 c).arrAt_eq_of_cover 8 (whole m c) (fun t _ => flushed_eq m c t) cover

/-- The run, read: the result array at the whole-array function, the arguments unchanged. -/
theorem run : θ_run defs (onTc (τ := τ) (main (F := Ideal))) ⟨m, fun _ => 0, ρ⟩ fun r => ∀ c : Dev nD,
      r.2.mem ((c : Thread nD τ).loc main_v16) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.EdgeConv.Kernel

end
-- ==== Proof.LibRowScatter.lean ====
/-
  General facts, at the exact instance (floats as extended reals), about a scatter-add of the ROWS of an [E, F] array
  of updates into an [N, F] array, the row each update row goes to read off an [E, 1] array of signed integers (what
  a segment sum over a list of receivers lowers to): read at (n, g), the result is the operand's entry plus the sum,
  over the update rows e whose integer is n, of the update's entry (e, g); an update row whose integer is negative or
  not below N contributes nothing. Then the law that lets such a sum pass through a matrix product with real
  entries: the rows' sum of (a term plus a row-by-column product) is the rows' sum of the terms plus the
  product of the rows' sum.
-/
import Idealize.ShloMosaic.PureOps.Ideal
import Idealize.ShloMosaic.PureOps.Ideal.Laws
import Idealize.ShloMosaic.PureOps.Contract
import Idealize.ShloMosaic.Lib.ValueIdx

noncomputable section

namespace Cert.LibRowScatter

open Idealize.ShloMosaic Idealize.ShloMosaic.ValueIdx

variable {N E F : Nat}

/-- The dimension numbers of a scatter of whole rows: the updates' second axis is the window, the operand's first
    axis is the one the integer addresses, and each update row has one integer. -/
abbrev rowDims (N E F : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF ⟨2, ![N, F]⟩ ⟨2, ![E, 1]⟩ ⟨2, ![E, F]⟩ [1] [0] [0] 1)

/-- On the addressed axis the window starts at update row e's integer, read signed. -/
theorem start_row {w : Nat} (idx : IVec ⟨2, ![E, 1]⟩ w) (e : Fin E) (f : Fin F) :
    (rowDims N E F wf).start (ix2 e f) idx 0 = (idx (ix2 e (0 : Fin 1))).toInt := by
  unfold ScatterDims.start
  rw [dif_pos (show (0 : Fin 2) ∈ (rowDims N E F wf).scatterDimsToOperandDims from List.mem_singleton.mpr rfl)]
  have hsi : (rowDims N E F wf).siIdx (ix2 e f) ⟨List.idxOf (0 : Fin 2) (rowDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window's axis it starts at 0. -/
theorem start_col {w : Nat} (idx : IVec ⟨2, ![E, 1]⟩ w) (j : (⟨2, ![E, F]⟩ : Shape).Idx) :
    (rowDims N E F wf).start j idx 1 = 0 := by
  unfold ScatterDims.start
  rw [dif_neg (show ¬ (1 : Fin 2) ∈ ([0] : List (Fin 2)) by decide)]

/-- The window has no extent on the addressed axis … -/
theorem window_row (j : (⟨2, ![E, F]⟩ : Shape).Idx) : (rowDims N E F wf).window j 0 = 0 := by
  unfold ScatterDims.window
  have h : ¬ (0 : Fin 2) ∈ (rowDims N E F wf).sKept := by
    show ¬ (0 : Fin 2) ∈ ([1] : List (Fin 2))
    decide
  rw [dif_neg h]

/-- … and is the update's column on the other. -/
theorem window_col (e : Fin E) (f : Fin F) : (rowDims N E F wf).window (ix2 e f) 1 = f.val := by
  unfold ScatterDims.window
  have h : (1 : Fin 2) ∈ (rowDims N E F wf).sKept := by
    show (1 : Fin 2) ∈ ([1] : List (Fin 2))
    decide
  rw [dif_pos h]
  rfl

/-- WHERE AN UPDATE ENTRY LANDS: entry (e, f) lands on (n, g) exactly when row e's integer is n and f is g. -/
theorem lands_iff {w : Nat} (idx : IVec ⟨2, ![E, 1]⟩ w) (e : Fin E) (f : Fin F) (n : Fin N) (g : Fin F) :
    (rowDims N E F wf).resultIdx? (ix2 e f) idx = some (ix2 n g)
      ↔ (idx (ix2 e (0 : Fin 1))).toInt = (n.val : Int) ∧ f = g := by
  have h0 : (rowDims N E F wf).start (ix2 e f) idx 0 + ((rowDims N E F wf).window (ix2 e f) 0 : Int)
      = (idx (ix2 e (0 : Fin 1))).toInt := by
    rw [start_row, window_row]; simp
  have h1 : (rowDims N E F wf).start (ix2 e f) idx 1 + ((rowDims N E F wf).window (ix2 e f) 1 : Int) = (f.val : Int) := by
    rw [start_col, window_col]; simp
  unfold ScatterDims.resultIdx?
  split
  · rename_i h
    rw [Option.some.injEq]
    constructor
    · intro hfn
      have e0 := congrArg (fun i => (i 0).val) hfn
      have e1 := congrArg (fun i => (i 1).val) hfn
      have b0 := (h 0).1
      simp only [h0] at e0 b0
      simp only [h1] at e1
      refine ⟨?_, Fin.ext ?_⟩
      · have : ((idx (ix2 e (0 : Fin 1))).toInt.toNat : Int) = (n.val : Int) := by exact_mod_cast e0
        omega
      · have : ((f.val : Int)).toNat = g.val := e1
        omega
    · rintro ⟨hn, rfl⟩
      funext a
      refine Fin.ext ?_
      match a with
      | ⟨0, _⟩ =>
        show ((rowDims N E F wf).start (ix2 e f) idx 0 + ((rowDims N E F wf).window (ix2 e f) 0 : Int)).toNat = n.val
        rw [h0, hn]; simp
      | ⟨1, _⟩ =>
        show ((rowDims N E F wf).start (ix2 e f) idx 1 + ((rowDims N E F wf).window (ix2 e f) 1 : Int)).toNat = f.val
        rw [h1]; simp
  · rename_i h
    constructor
    · intro hc; exact absurd hc (by simp)
    · rintro ⟨hn, rfl⟩
      exfalso
      apply h
      intro a
      match a with
      | ⟨0, _⟩ =>
        show 0 ≤ (rowDims N E F wf).start (ix2 e f) idx 0 + ((rowDims N E F wf).window (ix2 e f) 0 : Int)
          ∧ (rowDims N E F wf).start (ix2 e f) idx 0 + ((rowDims N E F wf).window (ix2 e f) 0 : Int) < (N : Int)
        rw [h0, hn]
        have := n.isLt
        omega
      | ⟨1, _⟩ =>
        show 0 ≤ (rowDims N E F wf).start (ix2 e f) idx 1 + ((rowDims N E F wf).window (ix2 e f) 1 : Int)
          ∧ (rowDims N E F wf).start (ix2 e f) idx 1 + ((rowDims N E F wf).window (ix2 e f) 1 : Int) < (F : Int)
        rw [h1]
        have := f.isLt
        omega

/-- The update rows that land on operand row n: those whose integer, read signed, is n. -/
def rowsOn {w : Nat} (idx : IVec ⟨2, ![E, 1]⟩ w) (n : Fin N) : Finset (Fin E) :=
  Finset.univ.filter fun e => (idx (ix2 e (0 : Fin 1))).toInt = (n.val : Int)

/-- THE SCATTER-ADD OF ROWS READ AT (n, g): the operand's entry plus the sum of the entries (e, g) of the update rows
    e that land on row n. -/
theorem scatterAdd_rows_apply {φ : FTy} {w : Nat} (x : FVec Ideal ⟨2, ![N, F]⟩ φ) (idx : IVec ⟨2, ![E, 1]⟩ w)
    (upd : FVec Ideal ⟨2, ![E, F]⟩ φ) (n : Fin N) (g : Fin F) :
    Host.scatterAdd (F := Ideal) (rowDims N E F wf) x idx upd (ix2 n g)
      = x (ix2 n g) + ∑ e ∈ rowsOn idx n, upd (ix2 e g) := by
  show x (ix2 n g) + ∑ j ∈ Finset.univ.filter (fun j => (rowDims N E F wf).resultIdx? j idx = some (ix2 n g)), upd j = _
  congr 1
  unfold rowsOn
  rw [Finset.sum_filter, sum_idx2, Finset.sum_filter]
  refine Finset.sum_congr rfl fun e _ => ?_
  simp only [lands_iff wf idx e _ n g]
  by_cases hL : (idx (ix2 e (0 : Fin 1))).toInt = (n.val : Int)
  · simp only [hL, true_and, if_true]
    rw [Finset.sum_ite_eq' Finset.univ g (fun f => upd (ix2 e f))]
    simp
  · simp only [hL, false_and, if_false]
    exact Finset.sum_const_zero

/-! ## The law that passes a sum of rows through a product with real entries -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries times a real is the sum of the products. -/
theorem sum_mul_real {ι : Type*} (s : Finset ι) (f : ι → ℝ) (v : ℝ) :
    (∑ i ∈ s, (f i : EReal)) * (v : EReal) = ∑ i ∈ s, (f i : EReal) * (v : EReal) := by
  have h : ∀ i, (f i : EReal) * (v : EReal) = ((f i * v : ℝ) : EReal) := fun i => (EReal.coe_mul _ _).symm
  simp only [h]
  rw [← coe_sum, ← coe_sum, ← EReal.coe_mul, Finset.sum_mul]

/-- Over any finite set R of rows: the sum of (t e + ∑ k, a e k · v k) is the sum of the t e plus ∑ k, (the sum of
    the a e k) · v k, when a and v are real (t may be anything: only sums are regrouped on its side). -/
theorem sum_rows_through_product {ι κ : Type*} [Fintype κ] (R : Finset ι) (t : ι → EReal) (a : ι → κ → EReal)
    (v : κ → EReal) (ha : ∀ e k, ∃ r : ℝ, a e k = (r : EReal)) (hv : ∀ k, ∃ r : ℝ, v k = (r : EReal)) :
    ∑ e ∈ R, (t e + ∑ k, a e k * v k) = ∑ e ∈ R, t e + ∑ k, (∑ e ∈ R, a e k) * v k := by
  choose ra hra using ha
  choose rv hrv using hv
  rw [Finset.sum_add_distrib]
  congr 1
  rw [Finset.sum_comm]
  refine Finset.sum_congr rfl fun k _ => ?_
  simp only [hra, hrv]
  exact (sum_mul_real R (fun e => ra e k) (rv k)).symm

end Cert.LibRowScatter

end
-- ==== Proof.Aggregate.lean ====
/-
  The one law that joins the two programs. Summing, over the edges that arrive at a node, the sender's features PLUS
  the edge's features projected by Wₑ, is summing the senders' features and, apart, summing the edges' features and
  projecting the sum:   ∑ₑ (g(e, d) + ∑ₖ E(e, k) · Wₑ(k, d)) = ∑ₑ g(e, d) + ∑ₖ (∑ₑ E(e, k)) · Wₑ(k, d).
  On the extended reals this needs E and Wₑ real (a product does not distribute over a sum that meets both
  infinities); the senders' features g may be anything, since on their side only sums are regrouped. Both
  scatter-adds start from arrays of zeros.
-/
import proofs.«150246_j86277303042056_2_alg».proof.Proof.LibRowScatter
import proofs.«150246_j86277303042056_2_alg».proof.Proof.Spec

noncomputable section

namespace Cert.EdgeConv

open Idealize.ShloMosaic Idealize.ShloMosaic.ValueIdx Cert.LibDense Cert.LibRowScatter

variable {N E : Nat}

/-- An edge's message at (e, d): the gathered sender's entry plus the edge's features' row times Wₑ's column. -/
def message (G : (⟨2, ![E, 128]⟩ : Shape).Idx → EReal) (Ed : (⟨2, ![E, 64]⟩ : Shape).Idx → EReal)
    (We : (⟨2, ![64, 128]⟩ : Shape).Idx → EReal) : (⟨2, ![E, 128]⟩ : Shape).Idx → EReal :=
  fun j => G j + ∑ k : Fin 64, Ed (ix2 (n0 := E) (n1 := 64) ⟨(j 0).val, (j 0).isLt⟩ k) * We (ix2 (n0 := 64) (n1 := 128) k ⟨(j 1).val, (j 1).isLt⟩)

theorem message_apply (G : (⟨2, ![E, 128]⟩ : Shape).Idx → EReal) (Ed : (⟨2, ![E, 64]⟩ : Shape).Idx → EReal)
    (We : (⟨2, ![64, 128]⟩ : Shape).Idx → EReal) (e : Fin E) (d : Fin 128) :
    message G Ed We (ix2 e d) = G (ix2 e d) + ∑ k : Fin 64, Ed (ix2 e k) * We (ix2 k d) := rfl

/-- THE LAW, at (n, d): the input built from the two separate scatter-adds is the scatter-add of the messages, plus
    the node's own term. -/
theorem combine_scattered
    (wf128 : ScatterDims.WF ⟨2, ![N, 128]⟩ ⟨2, ![E, 1]⟩ ⟨2, ![E, 128]⟩ [1] [0] [0] 1)
    (wf64 : ScatterDims.WF ⟨2, ![N, 64]⟩ ⟨2, ![E, 1]⟩ ⟨2, ![E, 64]⟩ [1] [0] [0] 1)
    (idx : IVec ⟨2, ![E, 1]⟩ 32)
    (z128 : FVec Ideal ⟨2, ![N, 128]⟩ .f32) (z64 : FVec Ideal ⟨2, ![N, 64]⟩ .f32)
    (hz128 : ∀ i, z128 i = 0) (hz64 : ∀ i, z64 i = 0)
    (G : FVec Ideal ⟨2, ![E, 128]⟩ .f32) (Ed : FVec Ideal ⟨2, ![E, 64]⟩ .f32)
    (We : (⟨2, ![64, 128]⟩ : Shape).Idx → EReal) (X : (⟨2, ![N, 128]⟩ : Shape).Idx → EReal)
    (hE : ∀ i, ∃ r : ℝ, Ed i = (r : EReal)) (hW : ∀ i, ∃ r : ℝ, We i = (r : EReal)) (n : Fin N) (d : Fin 128) :
    combine (Host.scatterAdd (F := Ideal) (rowDims N E 128 wf128) z128 idx G)
        (Host.scatterAdd (F := Ideal) (rowDims N E 64 wf64) z64 idx Ed) We X (ix2 n d)
      = Host.scatterAdd (F := Ideal) (rowDims N E 128 wf128) z128 idx (message G Ed We) (ix2 n d)
        + oneWord * X (ix2 n d) := by
  rw [combine_apply]
  simp only [scatterAdd_rows_apply, hz128, hz64, zero_add, message_apply]
  rw [sum_rows_through_product (rowsOn idx n) (fun e => G (ix2 e d)) (fun e k => Ed (ix2 e k)) (fun k => We (ix2 k d))
    (fun e k => hE _) (fun k => hW _)]

end Cert.EdgeConv

end
-- ==== Proof.KernelOperands.lean ====
/-
  What the host operations before the region leave in the kernel's operands, at the exact instance: the two
  scatter-adds over the receivers (of the gathered senders' rows, and of the edges' features), each into an array of
  zeros, and the three weight matrices unchanged (their change of float format is the identity here). With the law
  of Aggregate, the perceptron's input the kernel builds from them is the scatter-add of the edges' messages plus the
  node's own term.
-/
import proofs.«150246_j86277303042056_2_alg».proof.Proof.Gen.KernelIdeal.Frame
import proofs.«150246_j86277303042056_2_alg».proof.Proof.Aggregate
import Idealize.ShloMosaic.Lib.StableHlo.Run

noncomputable section

namespace Cert.EdgeConv.Operands

open Cert.KernelIdeal Cert.KernelIdeal.Gen
open Idealize.ShloMosaic Idealize.ShloMosaic.TcCoe Idealize.SL.Sem Idealize.ShloMosaic.StableHlo
open Idealize.ShloMosaic.ValueIdx Cert.LibRowScatter Cert.EdgeConv

/-- The senders' rows: a negative sender index is first moved up by the number of nodes, then the rows are gathered. -/
def gathered (x0 : FVec Ideal S100000x128 .f32) (x1 : IVec S1600000 32) : FVec Ideal S1600000x128 .f32 :=
  Host.gather gather_S100000x128_S1600000x1_S1600000x128_1_0_n_n_0_1_1128 x0
    (broadcastInDim S1600000x1 ![0] bcast_S1600000_S1600000x1_0
      (select (cmpi .slt x1 (broadcastInDim S1600000 ![] bcast_S_S1600000 (constantI S_ 32 0#32)))
        (addi x1 (broadcastInDim S1600000 ![] bcast_S_S1600000 (constantI S_ 32 100000#32))) x1))

/-- The receivers as one integer per edge row. -/
def receivers (x2 : IVec S1600000 32) : IVec S1600000x1 32 :=
  broadcastInDim S1600000x1 ![0] bcast_S1600000_S1600000x1_0 x2

/-- The arrays of zeros the scatter-adds start from. -/
def zeros128 : FVec Ideal S100000x128 .f32 :=
  broadcastInDim S100000x128 ![] bcast_S_S100000x128 (constant (F := Ideal) S_ .f32 0x00000000#32)
def zeros64 : FVec Ideal S100000x64 .f32 :=
  broadcastInDim S100000x64 ![] bcast_S_S100000x64 (constant (F := Ideal) S_ .f32 0x00000000#32)

theorem zeros128_apply (i : S100000x128.Idx) : zeros128 i = 0 := Ideal.ofBits_zero_f32
theorem zeros64_apply (i : S100000x64.Idx) : zeros64 i = 0 := Ideal.ofBits_zero_f32

variable (m : (ℓ : Loc nD τ sig) → Buf (Elt Ideal) ℓ)

/-- The senders' sums, as the region finds them. -/
theorem V_v9 (c : Dev nD) : (V m c main_v9 : S100000x128.Idx → EReal)
    = Host.scatterAdd (F := Ideal) (φ := .f32) scatter_S100000x128_S1600000x1_S1600000x128_1_0_0_1 zeros128
        (receivers (m ((c : Thread nD τ).loc main_arg2)))
        (gathered (m ((c : Thread nD τ).loc main_arg0)) (m ((c : Thread nD τ).loc main_arg1))) := by
  dsimp only [V, hostOps0]
  after_results
  rfl

/-- The edges' sums, as the region finds them. -/
theorem V_v12 (c : Dev nD) : (V m c main_v12 : S100000x64.Idx → EReal)
    = Host.scatterAdd (F := Ideal) (φ := .f32) scatter_S100000x64_S1600000x1_S1600000x64_1_0_0_1 zeros64
        (receivers (m ((c : Thread nD τ).loc main_arg2))) (m ((c : Thread nD τ).loc main_arg3)) := by
  dsimp only [V, hostOps0]
  after_results
  rfl

/-- The three weight matrices, as the region finds them. -/
theorem V_v13 (c : Dev nD) : (V m c main_v13 : S64x128.Idx → EReal) = m ((c : Thread nD τ).loc main_arg4) := by
  dsimp only [V, hostOps0]
  after_results
  rfl
theorem V_v14 (c : Dev nD) : (V m c main_v14 : S128x128.Idx → EReal) = m ((c : Thread nD τ).loc main_arg5) := by
  dsimp only [V, hostOps0]
  after_results
  rfl
theorem V_v15 (c : Dev nD) : (V m c main_v15 : S128x128.Idx → EReal) = m ((c : Thread nD τ).loc main_arg7) := by
  dsimp only [V, hostOps0]
  after_results
  rfl

end Cert.EdgeConv.Operands

end
-- ==== Proof.KernelClosed.lean ====
/-
  The kernel's whole-array function with its operands opened: when the edges' features and Wₑ are real, it is the
  perceptron of (the scatter-add, over the receivers, of the edges' messages) plus the node's own term — the form
  the reference's result has.
-/
import proofs.«150246_j86277303042056_2_alg».proof.Proof.KernelValue
import proofs.«150246_j86277303042056_2_alg».proof.Proof.KernelOperands

noncomputable section

namespace Cert.EdgeConv.Kernel

open Cert.KernelIdeal Cert.KernelIdeal.Gen
open Idealize.ShloMosaic Idealize.ShloMosaic.TcCoe Idealize.SL.Sem
open Idealize.ShloMosaic.ValueIdx Cert.LibDense Cert.LibRowScatter Cert.EdgeConv Cert.EdgeConv.Operands

variable (m : (ℓ : Loc nD τ sig) → Buf (Elt Ideal) ℓ)

/-- The kernel's scatters are scatters of rows. -/
theorem scatter128_eq : scatter_S100000x128_S1600000x1_S1600000x128_1_0_0_1
    = rowDims 100000 1600000 128 scatter_S100000x128_S1600000x1_S1600000x128_1_0_0_1_wf := rfl
theorem scatter64_eq : scatter_S100000x64_S1600000x1_S1600000x64_1_0_0_1
    = rowDims 100000 1600000 64 scatter_S100000x64_S1600000x1_S1600000x64_1_0_0_1_wf := rfl

/-- The perceptron's input in the reference's form: the scatter-add of the messages plus the node's own term. -/
def input (x0 : FVec Ideal S100000x128 .f32) (x1 x2 : IVec S1600000 32) (x3 : FVec Ideal S1600000x64 .f32)
    (x4 : FVec Ideal S64x128 .f32) : S100000x128.Idx → EReal :=
  fun i => (Host.scatterAdd (F := Ideal) (φ := .f32)
      (rowDims 100000 1600000 128 scatter_S100000x128_S1600000x1_S1600000x128_1_0_0_1_wf) zeros128 (receivers x2)
      (message (gathered x0 x1) x3 x4) i : EReal) + oneWord * x0 i

theorem whole_eq (c : Dev nD)
    (hE : ∀ i, ∃ r : ℝ, (m ((c : Thread nD τ).loc main_arg3) : S1600000x64.Idx → EReal) i = (r : EReal))
    (hW : ∀ i, ∃ r : ℝ, (m ((c : Thread nD τ).loc main_arg4) : S64x128.Idx → EReal) i = (r : EReal)) :
    whole m c = perceptron
      (input (m ((c : Thread nD τ).loc main_arg0)) (m ((c : Thread nD τ).loc main_arg1)) (m ((c : Thread nD τ).loc main_arg2))
        (m ((c : Thread nD τ).loc main_arg3)) (m ((c : Thread nD τ).loc main_arg4)))
      (m ((c : Thread nD τ).loc main_arg5)) (m ((c : Thread nD τ).loc main_arg6))
      (m ((c : Thread nD τ).loc main_arg7)) (m ((c : Thread nD τ).loc main_arg8)) := by
  have e0 : (arr m c 0 : S100000x128.Idx → EReal) = _ := (arr_eq m c 0).trans (V_v9 m c)
  have e1 : (arr m c 1 : S100000x64.Idx → EReal) = _ := (arr_eq m c 1).trans (V_v12 m c)
  have e2 : (arr m c 2 : S100000x128.Idx → EReal) = _ := (arr_eq m c 2).trans (V_main_arg0 m c)
  have e3 : (arr m c 3 : S64x128.Idx → EReal) = _ := (arr_eq m c 3).trans (V_v13 m c)
  have e4 : (arr m c 4 : S128x128.Idx → EReal) = _ := (arr_eq m c 4).trans (V_v14 m c)
  have e5 : (arr m c 5 : S128.Idx → EReal) = _ := (arr_eq m c 5).trans (V_main_arg6 m c)
  have e6 : (arr m c 6 : S128x128.Idx → EReal) = _ := (arr_eq m c 6).trans (V_v15 m c)
  have e7 : (arr m c 7 : S128.Idx → EReal) = _ := (arr_eq m c 7).trans (V_main_arg8 m c)
  rw [whole_def, result_eq_perceptron, e0, e1, e2, e3, e4, e5, e6, e7, scatter128_eq, scatter64_eq]
  refine congrArg (fun h => perceptron h (m ((c : Thread nD τ).loc main_arg5)) (m ((c : Thread nD τ).loc main_arg6))
    (m ((c : Thread nD τ).loc main_arg7)) (m ((c : Thread nD τ).loc main_arg8))) ?_
  funext i
  obtain ⟨n, d, rfl⟩ : ∃ (n : Fin 100000) (d : Fin 128), i = ix2 n d := ⟨i 0, i 1, eq_ix2 i⟩
  exact combine_scattered _ _ _ zeros128 zeros64 zeros128_apply zeros64_apply _ _ _ _ hE hW n d

end Cert.EdgeConv.Kernel

end
-- ==== Proof.RefValue.lean ====
/-
  The reference's result, at the exact instance, as the layer's perceptron of its own input, and that input as the
  scatter-add of the edges' messages (the gathered sender's row plus the edge's features projected by Wₑ) over the
  receivers, plus the node's own term.
-/
import proofs.«150246_j86277303042056_2_alg».proof.Proof.Gen.ReferenceIdeal.Read
import proofs.«150246_j86277303042056_2_alg».proof.Proof.Aggregate

noncomputable section

namespace Cert.EdgeConv.Ref

open Cert.ReferenceIdeal Cert.ReferenceIdeal.Gen Cert.ReferenceIdeal.Read
open Idealize.ShloMosaic Idealize.ShloMosaic.ValueIdx Cert.LibDense Cert.LibRowScatter Cert.EdgeConv

/-- The reference's scatter is a scatter of rows. -/
theorem scatterDims_eq : scatter_S100000x128_S1600000x1_S1600000x128_1_0_0_1
    = rowDims 100000 1600000 128 scatter_S100000x128_S1600000x1_S1600000x128_1_0_0_1_wf := rfl

/-- What the reference scatters: the edges' messages. -/
theorem messages_eq (x0 : FVec Ideal S100000x128 .f32) (x1 : IVec S1600000 32) (x3 : FVec Ideal S1600000x64 .f32)
    (x4 : FVec Ideal S64x128 .f32) :
    val_main_v8 (F := Ideal) x0 x1 x3 x4 = message (val_main_v7 (F := Ideal) x0 x1) x3 x4 := by
  funext j
  obtain ⟨e, d, rfl⟩ : ∃ (e : Fin 1600000) (d : Fin 128), j = ix2 e d := ⟨j 0, j 1, eq_ix2 j⟩
  have hl : ∀ k : Fin 64, lidx_main_v0 (ix2 e d) k = ix2 e k := fun k => funext fun a => Fin.ext (by
    match a with
    | ⟨0, _⟩ => rfl
    | ⟨1, _⟩ => rfl)
  have hr : ∀ k : Fin 64, ridx_main_v0 (ix2 e d) k = ix2 k d := fun k => funext fun a => Fin.ext (by
    match a with
    | ⟨0, _⟩ => rfl
    | ⟨1, _⟩ => rfl)
  rw [val_main_v8_apply, val_main_v0_apply, message_apply]
  simp only [hl, hr]
  rfl

/-- The reference's input to the perceptron. -/
theorem input_eq (x0 : FVec Ideal S100000x128 .f32) (x1 x2 : IVec S1600000 32) (x3 : FVec Ideal S1600000x64 .f32)
    (x4 : FVec Ideal S64x128 .f32) (i : S100000x128.Idx) :
    val_main_v14 (F := Ideal) x0 x1 x2 x3 x4 i
      = (Host.scatterAdd (F := Ideal) (φ := .f32) (rowDims 100000 1600000 128 scatter_S100000x128_S1600000x1_S1600000x128_1_0_0_1_wf)
          (val_main_v9 (F := Ideal)) (val_main_v10 (F := Ideal) x2) (message (val_main_v7 (F := Ideal) x0 x1) x3 x4) i : EReal)
        + oneWord * x0 i := by
  rw [val_main_v14_apply, val_main_v13_apply, val_main_v12_apply, val_main_cst_1_apply]
  unfold val_main_v11
  rw [messages_eq, scatterDims_eq]
  rfl

/-- The array of zeros the reference scatters into. -/
theorem zeros_apply (i : S100000x128.Idx) : val_main_v9 (F := Ideal) i = 0 := by
  rw [val_main_v9_apply, val_main_cst_apply]
  exact Ideal.ofBits_zero_f32

/-- The reference's result is the perceptron of its input. -/
theorem result_eq (x0 : FVec Ideal S100000x128 .f32) (x1 x2 : IVec S1600000 32) (x3 : FVec Ideal S1600000x64 .f32)
    (x4 : FVec Ideal S64x128 .f32) (x5 : FVec Ideal S128x128 .f32) (x6 : FVec Ideal S128 .f32)
    (x7 : FVec Ideal S128x128 .f32) (x8 : FVec Ideal S128 .f32) :
    val_main_v23 (F := Ideal) x0 x1 x2 x3 x4 x5 x6 x7 x8
      = perceptron (val_main_v14 (F := Ideal) x0 x1 x2 x3 x4) x5 x6 x7 x8 := by
  funext i
  obtain ⟨p, q, rfl⟩ : ∃ (p : Fin 100000) (q : Fin 128), i = ix2 p q := ⟨i 0, i 1, eq_ix2 i⟩
  have hl20 : ∀ k : Fin 128, lidx_main_v20 (ix2 p q) k = ix2 p k := fun k => funext fun a => Fin.ext (by
    match a with
    | ⟨0, _⟩ => rfl
    | ⟨1, _⟩ => rfl)
  have hr20 : ∀ k : Fin 128, ridx_main_v20 (ix2 p q) k = ix2 k q := fun k => funext fun a => Fin.ext (by
    match a with
    | ⟨0, _⟩ => rfl
    | ⟨1, _⟩ => rfl)
  have hb2 : idx_main_v21 (idx_main_v22 (ix2 p q)) = ix1 q := funext fun a => Fin.ext (by
    match a with
    | ⟨0, _⟩ => rfl)
  rw [val_main_v23_apply, val_main_v20_apply, val_main_v22_apply, val_main_v21_apply, hb2]
  unfold perceptron
  rw [affine_apply]
  refine congrArg₂ (fun (s b : EReal) => s + b) (Finset.sum_congr rfl fun k' _ => ?_) rfl
  rw [hl20 k', hr20 k']
  refine congrArg (fun s : EReal => s * x7 (ix2 k' q)) ?_
  have hl15 : ∀ k : Fin 128, lidx_main_v15 (ix2 p k') k = ix2 p k := fun k => funext fun a => Fin.ext (by
    match a with
    | ⟨0, _⟩ => rfl
    | ⟨1, _⟩ => rfl)
  have hr15 : ∀ k : Fin 128, ridx_main_v15 (ix2 p k') k = ix2 k k' := fun k => funext fun a => Fin.ext (by
    match a with
    | ⟨0, _⟩ => rfl
    | ⟨1, _⟩ => rfl)
  have hb1 : idx_main_v16 (idx_main_v17 (ix2 p k')) = ix1 k' := funext fun a => Fin.ext (by
    match a with
    | ⟨0, _⟩ => rfl)
  rw [val_main_v19_apply, val_main_v18_apply, val_main_v15_apply, val_main_v17_apply, val_main_v16_apply, hb1,
    val_main_call0_v0_apply, val_main_call0_cst_apply, layer_apply]
  refine congrArg₂ (fun (s b : EReal) => max s b)
    (congrArg₂ (fun (s b : EReal) => s + b) (Finset.sum_congr rfl fun k _ => ?_) rfl) rfl
  rw [hl15 k, hr15 k]

end Cert.EdgeConv.Ref

end
-- ==== Proof.Finite.lean ====
/-
  What the precondition gives: every entry of the edges' features and of Wₑ is a real number. The precondition is
  the conjunction, over the seven float inputs, of "every entry's absolute value is below plus infinity"; only
  these two conjuncts are used (the law that joins the two programs distributes a product over a sum of these
  entries only).
-/
import proofs.«150246_j86277303042056_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.EdgeConv.Finite

open Idealize.ShloMosaic Idealize.ShloMosaic.ValueIdx Cert.Pre_finite_inputs

instance : Subsingleton S_.Idx := ⟨fun a b => funext fun d => d.elim0⟩

/-- An extended real whose absolute value is below plus infinity (the f32 word 0x7F800000) is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

variable [Cert.Pre_finite_inputs.Facts]

/-- The precondition at the exact instance makes the edges' features and Wₑ real, entry by entry. -/
theorem real_of_pre (x0 : FVec Ideal S100000x128 .f32) (x1 x2 : IVec S1600000 32) (x3 : FVec Ideal S1600000x64 .f32)
    (x4 : FVec Ideal S64x128 .f32) (x5 : FVec Ideal S128x128 .f32) (x6 : FVec Ideal S128 .f32)
    (x7 : FVec Ideal S128x128 .f32) (x8 : FVec Ideal S128 .f32)
    (h : fn (F := Ideal) x0 x1 x2 x3 x4 x5 x6 x7 x8 = fun _ => 1#1) :
    (∀ i, ∃ r : ℝ, x3 i = (r : EReal)) ∧ (∀ i, ∃ r : ℝ, x4 i = (r : EReal)) := by
  have h0 := congrFun h ix0
  dsimp only [fn, fn_part1] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hW⟩ := IntOp.andi_eq_one.1 h0
  obtain ⟨-, hE⟩ := IntOp.andi_eq_one.1 h0
  exact ⟨fun i => real_of_abs_lt _ (Host.reduce_andi_all _ _ _ _ ix0 hE i),
    fun i => real_of_abs_lt _ (Host.reduce_andi_all _ _ _ _ ix0 hW i)⟩

end Cert.EdgeConv.Finite

end
-- ==== Proof.lean ====
/-
  The certificate's five claims.

  Both programs compute one layer of a graph network on 100000 nodes and 1600000 edges: each node adds up, over
  its incoming edges, the sender's features plus the edge's features projected by Wₑ, adds its own features, and
  passes the sum through a two-layer perceptron. The reference projects every edge's features and scatters the
  messages; the kernel scatters the senders' rows and the raw edge features apart, and projects the edge sum by Wₑ
  inside its body, one block of 5000 nodes per grid point. At exact arithmetic the two agree because a scatter-add
  is a sum and a sum passes through the product with Wₑ — which holds on the extended reals once the edges'
  features and Wₑ are real; that is the one place the precondition is used.

  The three frames are the generated ones (the reference's is its generated run with the result dropped); the
  idealization rewrote nothing, so its conjunct is trivial.
-/
import proofs.«150246_j86277303042056_2_alg».proof.Defs
import proofs.«150246_j86277303042056_2_alg».proof.Proof.Gen.Kernel
import proofs.«150246_j86277303042056_2_alg».proof.Proof.Gen.Kernel.Skeleton
import proofs.«150246_j86277303042056_2_alg».proof.Proof.Gen.Kernel.Launch
import proofs.«150246_j86277303042056_2_alg».proof.Proof.Gen.Kernel.Points
import proofs.«150246_j86277303042056_2_alg».proof.Proof.Gen.Kernel.Frame
import proofs.«150246_j86277303042056_2_alg».proof.Proof.Gen.KernelIdeal
import proofs.«150246_j86277303042056_2_alg».proof.Proof.Gen.KernelIdeal.Skeleton
import proofs.«150246_j86277303042056_2_alg».proof.Proof.Gen.KernelIdeal.Launch
import proofs.«150246_j86277303042056_2_alg».proof.Proof.Gen.KernelIdeal.Points
import proofs.«150246_j86277303042056_2_alg».proof.Proof.Gen.KernelIdeal.Frame
import proofs.«150246_j86277303042056_2_alg».proof.Proof.Gen.ReferenceIdeal
import proofs.«150246_j86277303042056_2_alg».proof.Proof.Gen.Pre_finite_inputs
import proofs.«150246_j86277303042056_2_alg».proof.Proof.Gen.KernelIdeal.Value
import proofs.«150246_j86277303042056_2_alg».proof.Proof.Gen.ReferenceIdeal.Run
import proofs.«150246_j86277303042056_2_alg».proof.Proof.Gen.ReferenceIdeal.Read
import proofs.«150246_j86277303042056_2_alg».proof.Proof.KernelClosed
import proofs.«150246_j86277303042056_2_alg».proof.Proof.RefValue
import proofs.«150246_j86277303042056_2_alg».proof.Proof.Finite
import Idealize.ShloMosaic.Adequacy
import Idealize.ShloMosaic.Init

noncomputable section

namespace Cert.Proof

open Idealize.ShloMosaic Idealize.SL.Sem Cert.EdgeConv

/-- The reference's input to the perceptron is the kernel's, as functions of the same arguments: the same gather,
    the same receivers, the same zeros and the same messages, scattered by the same dimension numbers. -/
theorem input_agree (x0 : FVec Ideal Cert.KernelIdeal.S100000x128 .f32) (x1 x2 : IVec Cert.KernelIdeal.S1600000 32)
    (x3 : FVec Ideal Cert.KernelIdeal.S1600000x64 .f32) (x4 : FVec Ideal Cert.KernelIdeal.S64x128 .f32) :
    Cert.ReferenceIdeal.Read.val_main_v14 (F := Ideal) x0 x1 x2 x3 x4 = Kernel.input x0 x1 x2 x3 x4 := by
  funext i
  rw [Ref.input_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the layer's result of its operands (the blocks tile it), the reference's at
    the perceptron of its input; with real edge features and a real Wₑ the two are one function of the arguments. -/
theorem algebraic : Cert.algebraic_KernelIdeal_ReferenceIdeal := by
  intro m ρ m' ρ' hpre hagree
  refine ⟨fun c => Kernel.whole m c, Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hE, hW⟩ := Finite.real_of_pre _ _ _ _ _ _ _ _ _ (hpre c)
  rw [Cert.ReferenceIdeal.Read.val_main_v23_eq, Ref.result_eq, input_agree,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Kernel.whole_eq m c hE hW).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
